-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S4096x64 .f32) (main_arg5 : FVec F S64 .f32) (main_arg6 : FVec F S4096x64 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x128 .f32) (main_arg3 : FVec F S4096 .f32) (main_arg4 : FVec F S4096x64 .f32) (main_arg5 : FVec F S64 .f32) (main_arg6 : FVec F S4096x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S4096x128x32 : Shape := ⟨3, ![4096, 128, 32]⟩
abbrev S4096x128x1 : Shape := ⟨3, ![4096, 128, 1]⟩
abbrev S8192x64 : Shape := ⟨2, ![8192, 64]⟩
abbrev S1x64 : Shape := ⟨2, ![1, 64]⟩
abbrev S1x4096 : Shape := ⟨2, ![1, 4096]⟩
abbrev S2048x512 : Shape := ⟨2, ![2048, 512]⟩
abbrev S1024x512 : Shape := ⟨2, ![1024, 512]⟩
abbrev S2048x64 : Shape := ⟨2, ![2048, 64]⟩
abbrev S1x1024 : Shape := ⟨2, ![1, 1024]⟩
abbrev S1024x64 : Shape := ⟨2, ![1024, 64]⟩
abbrev S2048x1024 : Shape := ⟨2, ![2048, 1024]⟩

abbrev nBuf : Space → Nat
  | .hbm => 23
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x128, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S4096x64, .f32⟩
  | .hbm, ⟨7, _⟩ => ⟨S8192x4096, .bf16⟩
  | .hbm, ⟨8, _⟩ => ⟨S4096x128x32, .f32⟩
  | .hbm, ⟨9, _⟩ => ⟨S4096x128x1, .f32⟩
  | .hbm, ⟨10, _⟩ => ⟨S4096x128x32, .f32⟩
  | .hbm, ⟨11, _⟩ => ⟨S4096x128x32, .f32⟩
  | .hbm, ⟨12, _⟩ => ⟨S4096x4096, .f32⟩
  | .hbm, ⟨13, _⟩ => ⟨S4096x4096, .bf16⟩
  | .hbm, ⟨14, _⟩ => ⟨S4096x64, .bf16⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S8192x64, .bf16⟩
  | .hbm, ⟨20, _⟩ => ⟨S4096x64, .bf16⟩
  | .hbm, ⟨21, _⟩ => ⟨S1x4096, .f32⟩
  | .hbm, ⟨22, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x64, .bf16⟩
  | .local _ .vmem, ⟨5, _⟩ => ⟨S2048x64, .bf16⟩
  | .local _ .vmem, ⟨6, _⟩ => ⟨S1x1024, .f32⟩
  | .local _ .vmem, ⟨7, _⟩ => ⟨S1x1024, .f32⟩
  | .local _ .vmem, ⟨8, _⟩ => ⟨S1024x64, .bf16⟩
  | .local _ .vmem, ⟨9, _⟩ => ⟨S1024x64, .bf16⟩
  | .local _ .vmem, ⟨10, _⟩ => ⟨S2048x1024, .f32⟩
  | .local _ .vmem, ⟨11, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S4096x4096_S4096x128x32 : S4096x4096.ShapeCasts S4096x128x32
  shapeCasts_S4096x128_S4096x128x1 : S4096x128.ShapeCasts S4096x128x1
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S8192x4096_S4096x64_S8192x64_1_0_0_1_n_n_wf : DotDims.WF S8192x4096 S4096x64 S8192x64 [1] [0] [0] [1] [] []
  dot_S2048x512_S1024x512_S2048x1024_1_1_0_0_n_n_wf : DotDims.WF S2048x512 S1024x512 S2048x1024 [1] [1] [0] [0] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .bf16 = 32 ∨ (Rect.block (s := S8192x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .bf16 = 32 ∨ (Rect.block (s := S4096x64) S1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S8192x64 : Shape := ⟨2, ![8192, 64]⟩
abbrev S1x64 : Shape := ⟨2, ![1, 64]⟩
abbrev S64x4096 : Shape := ⟨2, ![64, 4096]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x128, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S4096x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S64x4096, .f32⟩
  | .hbm, ⟨12, _⟩ => ⟨S8192x4096, .f32⟩
  | .hbm, ⟨13, _⟩ => ⟨S4096x128x32, .f32⟩
  | .hbm, ⟨14, _⟩ => ⟨S4096x128x1, .f32⟩
  | .hbm, ⟨15, _⟩ => ⟨S4096x128x32, .f32⟩
  | .hbm, ⟨16, _⟩ => ⟨S4096x128x32, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S4096x64_S64x4096_1_0 : S4096x64.Transposes [1, 0] S64x4096
  shapeCasts_S4096x4096_S4096x128x32 : S4096x4096.ShapeCasts S4096x128x32
  shapeCasts_S4096x128_S4096x128x1 : S4096x128.ShapeCasts S4096x128x1
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x64_S8192x64_1_0_0_1_n_n_wf : DotDims.WF S8192x4096 S4096x64 S8192x64 [1] [0] [0] [1] [] []
  dot_S8192x64_S64x4096_S8192x4096_1_0_0_1_n_n_wf : DotDims.WF S8192x64 S64x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.HostStages.lean ====
/-
  The arrays the kernel region finds, as functions of the program's arguments at the exact values. The host
  operations before the region narrow the activations, the de-quantised weight, the low-rank factors and the hidden
  activations to bf16 — the identity at the exact values — so: the activation array is the input; the weight array is
  the de-quantised weight (each entry of the quantised weight times its block's scale), the very term the reference
  builds; the hidden array is (input x V) scaled column by column by S, again the reference's own term; the U array is
  the argument; and the bias row is the bias vector stored as a 1 x 4096 row.
-/
import proofs.«163559_j85289460564390_2_alg».proof.Proof.Gen.KernelIdeal.Frame.Runs
import proofs.«163559_j85289460564390_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostStages

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The activation array is the input. -/
theorem activations (c : Dev nD) :
    (V m c main_v0 : S8192x4096.Idx → EReal) = m ((c : Thread nD τ).loc main_arg0) := by
  dsimp only [V, hostOps0]
  after_results
  rfl

/-- The weight array is the de-quantised weight, as the reference spells it. -/
theorem weight (c : Dev nD) :
    (V m c main_v6 : S4096x4096.Idx → EReal)
      = Cert.ReferenceIdeal.Read.val_main_v10 (F := Ideal) (m ((c : Thread nD τ).loc main_arg1)) (m ((c : Thread nD τ).loc main_arg2)) := by
  dsimp only [V, hostOps0]
  after_results
  rfl

/-- The hidden array is `(input x V) * S`, as the reference spells it. -/
theorem hidden (c : Dev nD) :
    (V m c main_v12 : S8192x64.Idx → EReal)
      = Cert.ReferenceIdeal.Read.val_main_v3 (F := Ideal) (m ((c : Thread nD τ).loc main_arg0)) (m ((c : Thread nD τ).loc main_arg5))
          (m ((c : Thread nD τ).loc main_arg6)) := by
  dsimp only [V, hostOps0]
  after_results
  rfl

/-- The U array is the argument. -/
theorem lowRankU (c : Dev nD) :
    (V m c main_v13 : S4096x64.Idx → EReal) = m ((c : Thread nD τ).loc main_arg4) := by
  dsimp only [V, hostOps0]
  after_results
  rfl

/-- The bias row is the bias vector stored as a `1 x 4096` row. -/
theorem biasRow (c : Dev nD) :
    (V m c main_v14 : S1x4096.Idx → EReal)
      = shapeCast S1x4096 (m ((c : Thread nD τ).loc main_arg3)) shapeCasts_S4096_S1x4096 := by
  dsimp only [V, hostOps0]
  after_results
  rfl

end Cert.KernelIdeal.HostStages

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.Blocks.lean ====
/-
  The input windows' blocks at a grid point, read off the program's arguments. The grid is 4 x 4 x 8: point `t` has
  row-tile `t / 32`, column-tile `t / 8 % 4` and contraction-tile `t % 8`. Entry `(p, k)` of a block is the entry
  of its array at (block index x block size + the coordinate inside the block) on each axis.
-/
import proofs.«163559_j85289460564390_2_alg».proof.Proof.HostStages
import proofs.«163559_j85289460564390_2_alg».proof.Proof.LibVecRow

noncomputable section

namespace Cert.KernelIdeal.Blocks

open Cert.KernelIdeal Cert.KernelIdeal.Gen Idealize.ShloMosaic Idealize.ShloMosaic.TcCoe Idealize.SL.Sem Idealize.ShloMosaic.ValueIdx

/-- The printed index maps, decided once over the grid's 128 points. -/
theorem tiles : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = 0
    ∧ win0_3.index t (0 : Fin 2) = 0 ∧ win0_3.index t (1 : Fin 2) = t.val / 8 % 4
    ∧ win0_4.index t (0 : Fin 2) = t.val / 8 % 4 ∧ win0_4.index t (1 : Fin 2) = 0 :=
  (by decide +kernel : ∀ t : Fin grid0.N, _)

variable (m : (ℓ : Loc nD τ sig) → Buf (Elt Ideal) ℓ)

/-- The activation block at point `t`: rows of row-tile `t / 32`, columns of contraction-tile `t % 8`. -/
theorem activations (c : Dev nD) (t : Fin cfg0.N) (p : Fin 2048) (k : Fin 512) (P : Fin 8192) (K : Fin 4096)
    (hP : P.val = t.val / 32 * 2048 + p.val) (hK : K.val = t.val % 8 * 512 + k.val) :
    (iblk m c 0 t : S2048x512.Idx → EReal) (ix2 p k) = m ((c : Thread nD τ).loc main_arg0) (ix2 P K) := by
  show (V m c main_v0 : S8192x4096.Idx → EReal) (((cfg0.win 0).blk t).view.emb (ix2 p k)) = _
  rw [HostStages.activations]
  obtain ⟨e0, e1, -⟩ := tiles t
  refine congrArg _ (funext fun a => Fin.ext ?_)
  match a with
  | ⟨0, _⟩ => show win0_0.index t (0 : Fin 2) * 2048 + 1 * p.val = P.val; rw [e0, hP]; omega
  | ⟨1, _⟩ => show win0_0.index t (1 : Fin 2) * 512 + 1 * k.val = K.val; rw [e1, hK]; omega

/-- The weight block at point `t`: rows of column-tile `t / 8 % 4`, columns of contraction-tile `t % 8`. -/
theorem weight (c : Dev nD) (t : Fin cfg0.N) (q : Fin 1024) (k : Fin 512) (Q : Fin 4096) (K : Fin 4096)
    (hQ : Q.val = t.val / 8 % 4 * 1024 + q.val) (hK : K.val = t.val % 8 * 512 + k.val) :
    (iblk m c 1 t : S1024x512.Idx → EReal) (ix2 q k)
      = Cert.ReferenceIdeal.Read.val_main_v10 (F := Ideal) (m ((c : Thread nD τ).loc main_arg1)) (m ((c : Thread nD τ).loc main_arg2)) (ix2 Q K) := by
  show (V m c main_v6 : S4096x4096.Idx → EReal) (((cfg0.win 1).blk t).view.emb (ix2 q k)) = _
  rw [HostStages.weight]
  obtain ⟨-, -, e0, e1, -⟩ := tiles t
  refine congrArg _ (funext fun a => Fin.ext ?_)
  match a with
  | ⟨0, _⟩ => show win0_1.index t (0 : Fin 2) * 1024 + 1 * q.val = Q.val; rw [e0, hQ]; omega
  | ⟨1, _⟩ => show win0_1.index t (1 : Fin 2) * 512 + 1 * k.val = K.val; rw [e1, hK]; omega

/-- The hidden block at point `t`: rows of row-tile `t / 32`, all 64 columns. -/
theorem hidden (c : Dev nD) (t : Fin cfg0.N) (p : Fin 2048) (r : Fin 64) (P : Fin 8192)
    (hP : P.val = t.val / 32 * 2048 + p.val) :
    (iblk m c 2 t : S2048x64.Idx → EReal) (ix2 p r)
      = Cert.ReferenceIdeal.Read.val_main_v3 (F := Ideal) (m ((c : Thread nD τ).loc main_arg0)) (m ((c : Thread nD τ).loc main_arg5))
          (m ((c : Thread nD τ).loc main_arg6)) (ix2 P r) := by
  show (V m c main_v12 : S8192x64.Idx → EReal) (((cfg0.win 2).blk t).view.emb (ix2 p r)) = _
  rw [HostStages.hidden]
  obtain ⟨-, -, -, -, e0, e1, -⟩ := tiles t
  refine congrArg _ (funext fun a => Fin.ext ?_)
  match a with
  | ⟨0, _⟩ => show win0_2.index t (0 : Fin 2) * 2048 + 1 * p.val = P.val; rw [e0, hP]; omega
  | ⟨1, _⟩ => show win0_2.index t (1 : Fin 2) * 64 + 1 * r.val = r.val; rw [e1]; omega

/-- The bias block at point `t`: the entries of column-tile `t / 8 % 4` of the bias vector. -/
theorem bias (c : Dev nD) (t : Fin cfg0.N) (q : Fin 1024) (Q : Fin 4096)
    (hQ : Q.val = t.val / 8 % 4 * 1024 + q.val) :
    (iblk m c 3 t : S1x1024.Idx → EReal) (ix2 (0 : Fin 1) q) = m ((c : Thread nD τ).loc main_arg3) (ix1 Q) := by
  show (V m c main_v14 : S1x4096.Idx → EReal) (((cfg0.win 3).blk t).view.emb (ix2 (0 : Fin 1) q)) = _
  rw [HostStages.biasRow]
  obtain ⟨-, -, -, -, -, -, e0, e1, -⟩ := tiles t
  refine Eq.trans (congrArg _ (funext fun a => Fin.ext ?_)) (Cert.VecRow.row_of_vec_apply shapeCasts_S4096_S1x4096 _ (0 : Fin 1) Q)
  match a with
  | ⟨0, _⟩ => show win0_3.index t (0 : Fin 2) * 1 + 1 * 0 = 0; rw [e0]
  | ⟨1, _⟩ => show win0_3.index t (1 : Fin 2) * 1024 + 1 * q.val = Q.val; rw [e1, hQ]; omega

/-- The U block at point `t`: rows of column-tile `t / 8 % 4`, all 64 columns. -/
theorem lowRankU (c : Dev nD) (t : Fin cfg0.N) (q : Fin 1024) (r : Fin 64) (Q : Fin 4096)
    (hQ : Q.val = t.val / 8 % 4 * 1024 + q.val) :
    (iblk m c 4 t : S1024x64.Idx → EReal) (ix2 q r) = m ((c : Thread nD τ).loc main_arg4) (ix2 Q r) := by
  show (V m c main_v13 : S4096x64.Idx → EReal) (((cfg0.win 4).blk t).view.emb (ix2 q r)) = _
  rw [HostStages.lowRankU]
  obtain ⟨-, -, -, -, -, -, -, -, e0, e1⟩ := tiles t
  refine congrArg _ (funext fun a => Fin.ext ?_)
  match a with
  | ⟨0, _⟩ => show win0_4.index t (0 : Fin 2) * 1024 + 1 * q.val = Q.val; rw [e0, hQ]; omega
  | ⟨1, _⟩ => show win0_4.index t (1 : Fin 2) * 64 + 1 * r.val = r.val; rw [e1]; omega

end Cert.KernelIdeal.Blocks

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.BodyEntry.lean ====
/-
  The body's three stored values read at an entry of the 2048 x 1024 output block, at the exact values:
  the reset value is zero; the accumulation step adds to the block's entry (p, q) the tile's partial product
  sum over k of x(p, k) * w(q, k) (both operands contracted along their second axis, into a zero accumulator);
  the epilogue adds the low-rank product sum over r of h(p, r) * u(q, r) plus the bias row's entry q.
-/
import proofs.«163559_j85289460564390_2_alg».proof.Proof.Gen.KernelIdeal.Skeleton
import proofs.«163559_j85289460564390_2_alg».proof.Proof.LibMatmulNT
import proofs.«163559_j85289460564390_2_alg».proof.Proof.LibRowBroadcast
import Idealize.ShloMosaic.Lib.Pipeline.Value
import Idealize.ShloMosaic.Lib.ValueIdx
import Idealize.ShloMosaic.PureOps.Ideal.Laws

noncomputable section

namespace Cert.KernelIdeal.BodyEntry

open Cert.KernelIdeal Cert.KernelIdeal.Gen Idealize.ShloMosaic Idealize.ShloMosaic.ValueIdx

/-! ## Where the two products' operand indices come from -/

section MainDot
local notation "D" => dot_S2048x512_S1024x512_S2048x1024_1_1_0_0_n_n

theorem main_l0 (i : S2048x1024.Idx) (q : (D).contr.Idx) : ((D).lhsIdx i q 0).val = (i 0).val := by
  unfold DotDims.lhsIdx
  rw [dif_neg (show ¬(0 : Fin S2048x512.rank) ∈ (D).lhsBatch by decide), dif_pos (show (0 : Fin S2048x512.rank) ∈ (D).lhsNonContracting by decide)]
  rfl
theorem main_l1 (i : S2048x1024.Idx) (q : (D).contr.Idx) : ((D).lhsIdx i q 1).val = (q ⟨0, by decide⟩).val :=
  (D).lhsIdx_val_of_single rfl i q
theorem main_r0 (i : S2048x1024.Idx) (q : (D).contr.Idx) : ((D).rhsIdx i q 0).val = (i 1).val := by
  unfold DotDims.rhsIdx
  rw [dif_neg (show ¬(0 : Fin S1024x512.rank) ∈ (D).rhsBatch by decide), dif_pos (show (0 : Fin S1024x512.rank) ∈ (D).rhsNonContracting by decide)]
  rfl
theorem main_r1 (i : S2048x1024.Idx) (q : (D).contr.Idx) : ((D).rhsIdx i q 1).val = (q ⟨0, by decide⟩).val :=
  (D).rhsIdx_val_of_single rfl i q
end MainDot

section LowRankDot
local notation "E" => dot_S2048x64_S1024x64_S2048x1024_1_1_0_0_n_n

theorem low_l0 (i : S2048x1024.Idx) (q : (E).contr.Idx) : ((E).lhsIdx i q 0).val = (i 0).val := by
  unfold DotDims.lhsIdx
  rw [dif_neg (show ¬(0 : Fin S2048x64.rank) ∈ (E).lhsBatch by decide), dif_pos (show (0 : Fin S2048x64.rank) ∈ (E).lhsNonContracting by decide)]
  rfl
theorem low_l1 (i : S2048x1024.Idx) (q : (E).contr.Idx) : ((E).lhsIdx i q 1).val = (q ⟨0, by decide⟩).val :=
  (E).lhsIdx_val_of_single rfl i q
theorem low_r0 (i : S2048x1024.Idx) (q : (E).contr.Idx) : ((E).rhsIdx i q 0).val = (i 1).val := by
  unfold DotDims.rhsIdx
  rw [dif_neg (show ¬(0 : Fin S1024x64.rank) ∈ (E).rhsBatch by decide), dif_pos (show (0 : Fin S1024x64.rank) ∈ (E).rhsNonContracting by decide)]
  rfl
theorem low_r1 (i : S2048x1024.Idx) (q : (E).contr.Idx) : ((E).rhsIdx i q 1).val = (q ⟨0, by decide⟩).val :=
  (E).rhsIdx_val_of_single rfl i q
end LowRankDot

/-! ## The three stored values at an entry -/

/-- The reset value is zero everywhere. -/
theorem reset_apply (j : S2048x1024.Idx) : k0_pay1 (F := Ideal) j = 0 := by
  unfold k0_pay1
  exact Ideal.ofBits_zero_f32

/-- The accumulation step at entry `(p, q)`: what was there plus the tile's partial product. -/
theorem accumulate_apply (x : Vec Ideal S2048x512 .bf16) (w : Vec Ideal S1024x512 .bf16) (acc : Vec Ideal S2048x1024 .f32)
    (p : Fin 2048) (q : Fin 1024) :
    k0_pay2 x w acc (ix2 p q) = acc (ix2 p q) + ∑ k : Fin 512, x (ix2 p k) * w (ix2 q k) := by
  unfold k0_pay2
  simp only [shapeCast_self]
  refine (addf_apply _ _ _).trans ?_
  exact congrArg (acc (ix2 p q) + ·)
    (Cert.PlainDotNT.matmul_rows_rows_zero_apply dot_S2048x512_S1024x512_S2048x1024_1_1_0_0_n_n none rfl rfl
      main_l0 main_l1 main_r0 main_r1 x w p q)

/-- The epilogue at entry `(p, q)`: what was there plus (the low-rank product plus the bias row at `q`). -/
theorem epilogue_apply (h : Vec Ideal S2048x64 .bf16) (u : Vec Ideal S1024x64 .bf16) (acc : Vec Ideal S2048x1024 .f32)
    (b : Vec Ideal S1x1024 .f32) (p : Fin 2048) (q : Fin 1024) :
    k0_pay3 h u acc b (ix2 p q)
      = acc (ix2 p q) + (∑ r : Fin 64, h (ix2 p r) * u (ix2 q r) + b (ix2 (0 : Fin 1) q)) := by
  unfold k0_pay3
  simp only [shapeCast_self]
  refine (addf_apply _ _ _).trans ?_
  refine congrArg (acc (ix2 p q) + ·) ?_
  refine (addf_apply _ _ _).trans ?_
  rw [Cert.RowBroadcast.broadcastTo_1b_ab_apply]
  exact congrArg (· + b (ix2 (0 : Fin 1) q))
    (Cert.PlainDotNT.matmul_rows_rows_zero_apply dot_S2048x64_S1024x64_S2048x1024_1_1_0_0_n_n none rfl rfl
      low_l0 low_l1 low_r0 low_r1 h u p q)

end Cert.KernelIdeal.BodyEntry

end
-- ==== Proof.KernelEntry.lean ====
/-
  What the kernel leaves at entry (P, Q) of its 8192 x 4096 result, at the exact values. The entry lies in the
  output block of row-tile P / 2048 and column-tile Q / 1024, at place (P % 2048, Q % 1024); that block is visited
  by a run of eight consecutive grid points, one per tile of 512 contraction positions. The first point resets the
  block to zero plus its tile's partial product, the next six each add theirs, and the last adds its own and then the
  epilogue: the low-rank product of the hidden activations with U, plus the bias. So the entry ends as

      ((0 + sum of tiles 0..6) + tile 7) + (sum over r of hidden(P, r) * U(Q, r) + bias(Q)),

  tile s being the sum over d < 512 of input(P, 512 s + d) * weight(Q, 512 s + d).
-/
import proofs.«163559_j85289460564390_2_alg».proof.Proof.Gen.KernelIdeal.Value
import proofs.«163559_j85289460564390_2_alg».proof.Proof.Blocks
import proofs.«163559_j85289460564390_2_alg».proof.Proof.BodyEntry

noncomputable section

namespace Cert.KernelIdeal.KernelEntry

open Cert.KernelIdeal Cert.KernelIdeal.Gen Idealize.ShloMosaic Idealize.ShloMosaic.TcCoe Idealize.SL.Sem Idealize.ShloMosaic.ValueIdx
open Idealize.ShloMosaic.Pipeline (accAt)

variable (m : (ℓ : Loc nD τ sig) → Buf (Elt Ideal) ℓ)

/-! ## The arrays and the blocks as functions into the extended reals -/

/-- The input activations. -/
abbrev input (c : Dev nD) : S8192x4096.Idx → EReal := m ((c : Thread nD τ).loc main_arg0)
/-- The de-quantised weight (the reference's own stage). -/
abbrev weight (c : Dev nD) : S4096x4096.Idx → EReal :=
  Cert.ReferenceIdeal.Read.val_main_v10 (F := Ideal) (m ((c : Thread nD τ).loc main_arg1)) (m ((c : Thread nD τ).loc main_arg2))
/-- The hidden activations `(input x V) * S` (the reference's own stage). -/
abbrev hidden (c : Dev nD) : S8192x64.Idx → EReal :=
  Cert.ReferenceIdeal.Read.val_main_v3 (F := Ideal) (m ((c : Thread nD τ).loc main_arg0)) (m ((c : Thread nD τ).loc main_arg5))
    (m ((c : Thread nD τ).loc main_arg6))
/-- The low-rank factor U. -/
abbrev lowU (c : Dev nD) : S4096x64.Idx → EReal := m ((c : Thread nD τ).loc main_arg4)
/-- The bias vector. -/
abbrev bias (c : Dev nD) : S4096.Idx → EReal := m ((c : Thread nD τ).loc main_arg3)

/-- The five input blocks at a grid point. -/
abbrev xblk (c : Dev nD) (t : Fin cfg0.N) : S2048x512.Idx → EReal := iblk m c 0 t
abbrev wblk (c : Dev nD) (t : Fin cfg0.N) : S1024x512.Idx → EReal := iblk m c 1 t
abbrev hblk (c : Dev nD) (t : Fin cfg0.N) : S2048x64.Idx → EReal := iblk m c 2 t
abbrev bblk (c : Dev nD) (t : Fin cfg0.N) : S1x1024.Idx → EReal := iblk m c 3 t
abbrev ublk (c : Dev nD) (t : Fin cfg0.N) : S1024x64.Idx → EReal := iblk m c 4 t

/-! ## The terms of the result, in the arguments -/

/-- The main contraction's term at position `K` for the result's entry `(P, Q)`: input times de-quantised weight. -/
def mainTerm (c : Dev nD) (P : Fin 8192) (Q : Fin 4096) (K : Fin 4096) : EReal :=
  input m c (ix2 P K) * weight m c (ix2 Q K)

/-- Tile `s` of the main contraction: its 512 terms at positions `512 * s + d`. -/
def tileSum (c : Dev nD) (P : Fin 8192) (Q : Fin 4096) (s : ℕ) : EReal :=
  ∑ d : Fin 512, (if h : 512 * s + d.val < 4096 then mainTerm m c P Q ⟨512 * s + d.val, h⟩ else 0)

/-- The low-rank term for entry `(P, Q)`: hidden activations against the rows of U. -/
def lowRank (c : Dev nD) (P : Fin 8192) (Q : Fin 4096) : EReal :=
  ∑ r : Fin 64, hidden m c (ix2 P r) * lowU m c (ix2 Q r)

/-! ## One grid point's contribution at a place of the output block -/

/-- Point `n`'s partial product at place `(p, q)` of the output block (zero past the grid: never read). -/
def tilePart (c : Dev nD) (n : ℕ) (y : S2048x1024.Idx) : EReal :=
  if h : n < cfg0.N then ∑ k : Fin 512, xblk m c ⟨n, h⟩ (ix2 (y 0) k) * wblk m c ⟨n, h⟩ (ix2 (y 1) k) else 0

theorem tilePart_ix2 (c : Dev nD) (n : ℕ) (h : n < cfg0.N) (p : Fin 2048) (q : Fin 1024) :
    tilePart m c n (ix2 p q) = ∑ k : Fin 512, xblk m c ⟨n, h⟩ (ix2 p k) * wblk m c ⟨n, h⟩ (ix2 q k) := by
  unfold tilePart
  rw [dif_pos h]

/-- The reset leaves zero plus the point's partial product. -/
theorem reset_entry (c : Dev nD) (n : ℕ) (h : n < cfg0.N) (y : S2048x1024.Idx) :
    (Value.reset5 m c n h : S2048x1024.Idx → EReal) y = 0 + tilePart m c n y := by
  obtain ⟨p, q, rfl⟩ : ∃ (p : Fin 2048) (q : Fin 1024), y = ix2 p q := ⟨y 0, y 1, eq_ix2 y⟩
  rw [tilePart_ix2 m c n h]
  unfold Value.reset5
  refine (BodyEntry.accumulate_apply (iblk m c 0 ⟨n, h⟩) (iblk m c 1 ⟨n, h⟩) (k0_pay1 (F := Ideal)) p q).trans ?_
  rw [BodyEntry.reset_apply]

/-- A step strictly inside the run adds the point's partial product. -/
theorem step_mid (c : Dev nD) (n : ℕ) (h : n < cfg0.N) (h0 : ¬n % 8 = 0) (h7 : ¬n % 8 = 7)
    (acc : S2048x1024.Idx → EReal) (y : S2048x1024.Idx) :
    (Value.step5 m c n h acc : S2048x1024.Idx → EReal) y = acc y + tilePart m c n y := by
  obtain ⟨p, q, rfl⟩ : ∃ (p : Fin 2048) (q : Fin 1024), y = ix2 p q := ⟨y 0, y 1, eq_ix2 y⟩
  rw [tilePart_ix2 m c n h]
  unfold Value.step5
  rw [if_pos ⟨h0, h7⟩]
  exact BodyEntry.accumulate_apply (iblk m c 0 ⟨n, h⟩) (iblk m c 1 ⟨n, h⟩) acc p q

/-- The run's last step adds the point's partial product and then the epilogue. -/
theorem step_last (c : Dev nD) (n : ℕ) (h : n < cfg0.N) (h7 : n % 8 = 7)
    (acc : S2048x1024.Idx → EReal) (p : Fin 2048) (q : Fin 1024) :
    (Value.step5 m c n h acc : S2048x1024.Idx → EReal) (ix2 p q)
      = (acc (ix2 p q) + tilePart m c n (ix2 p q))
        + (∑ r : Fin 64, hblk m c ⟨n, h⟩ (ix2 p r) * ublk m c ⟨n, h⟩ (ix2 q r) + bblk m c ⟨n, h⟩ (ix2 (0 : Fin 1) q)) := by
  rw [tilePart_ix2 m c n h]
  unfold Value.step5
  rw [if_neg (by omega), if_pos ⟨by omega, h7⟩]
  refine (BodyEntry.epilogue_apply (iblk m c 2 ⟨n, h⟩) (iblk m c 4 ⟨n, h⟩)
    (k0_pay2 (iblk m c 0 ⟨n, h⟩) (iblk m c 1 ⟨n, h⟩) acc) (iblk m c 3 ⟨n, h⟩) p q).trans ?_
  exact congrArg
    (· + (∑ r : Fin 64, hblk m c ⟨n, h⟩ (ix2 p r) * ublk m c ⟨n, h⟩ (ix2 q r) + bblk m c ⟨n, h⟩ (ix2 (0 : Fin 1) q)))
    (BodyEntry.accumulate_apply (iblk m c 0 ⟨n, h⟩) (iblk m c 1 ⟨n, h⟩) acc p q)

/-- A whole run's fold at a place of the block: the eight partial products accumulated from zero, then the epilogue
    of the run's last point. -/
theorem fold_entry (c : Dev nD) (b : ℕ) (hb : b % 8 = 0) (h : b + 7 < cfg0.N) (p : Fin 2048) (q : Fin 1024) :
    (accAt (Value.reset5 m c) (Value.step5 m c) b 7 h : S2048x1024.Idx → EReal) (ix2 p q)
      = ((0 + ∑ s ∈ Finset.range 7, tilePart m c (b + s) (ix2 p q)) + tilePart m c (b + 7) (ix2 p q))
        + (∑ r : Fin 64, hblk m c ⟨b + 7, h⟩ (ix2 p r) * ublk m c ⟨b + 7, h⟩ (ix2 q r) + bblk m c ⟨b + 7, h⟩ (ix2 (0 : Fin 1) q)) := by
  show (Value.step5 m c (b + (6 + 1)) h (accAt (Value.reset5 m c) (Value.step5 m c) b 6 (Nat.lt_of_succ_lt h)) : S2048x1024.Idx → EReal) (ix2 p q) = _
  rw [step_last m c (b + (6 + 1)) h (by omega) _ p q]
  rw [Pipeline.accAt_add_apply (ι := S2048x1024.Idx) (β := EReal) (Value.reset5 m c) (Value.step5 m c) (fun _ => 0) (tilePart m c) b 6
    (fun h' i => reset_entry m c b h' i)
    (fun n h' acc i hn1 hn2 => step_mid m c n h' (by omega) (by omega) acc i) 6 le_rfl (Nat.lt_of_succ_lt h) (ix2 p q)]

/-! ## The partial products and the epilogue in the arguments -/

/-- The partial product of the point at offset `s` of the run of entry `(P, Q)`'s block is tile `s` of the main
    contraction. -/
theorem tilePart_eq (c : Dev nD) (P : Fin 8192) (Q : Fin 4096) (n s : ℕ) (hs : s < 8)
    (hn : n = 8 * (4 * (P.val / 2048) + Q.val / 1024) + s) (p : Fin 2048) (q : Fin 1024)
    (hp : p.val = P.val % 2048) (hq : q.val = Q.val % 1024) :
    tilePart m c n (ix2 p q) = tileSum m c P Q s := by
  have hP := P.isLt
  have hQ := Q.isLt
  have hN : cfg0.N = 128 := N_0
  have h : n < cfg0.N := by rw [hN]; omega
  rw [tilePart_ix2 m c n h]
  unfold tileSum
  refine Finset.sum_congr rfl fun d _ => ?_
  have hd := d.isLt
  have hK : 512 * s + d.val < 4096 := by omega
  rw [dif_pos hK]
  unfold mainTerm
  have e1 : xblk m c ⟨n, h⟩ (ix2 p d) = input m c (ix2 P ⟨512 * s + d.val, hK⟩) :=
    Blocks.activations m c ⟨n, h⟩ p d P ⟨512 * s + d.val, hK⟩ (by show P.val = n / 32 * 2048 + p.val; omega)
      (by show 512 * s + d.val = n % 8 * 512 + d.val; omega)
  have e2 : wblk m c ⟨n, h⟩ (ix2 q d) = weight m c (ix2 Q ⟨512 * s + d.val, hK⟩) :=
    Blocks.weight m c ⟨n, h⟩ q d Q ⟨512 * s + d.val, hK⟩ (by show Q.val = n / 8 % 4 * 1024 + q.val; omega)
      (by show 512 * s + d.val = n % 8 * 512 + d.val; omega)
  rw [e1, e2]

/-- A run's fold is what the result holds at the places of the run's block. -/
theorem G5_apply (c : Dev nD) (i : S8192x4096.Idx) (R : ℕ) (hR : Value.run5Of i = R) (h : 8 * R + 7 < cfg0.N) :
    (Value.G5 (F := Ideal) m c : S8192x4096.Idx → EReal) i
      = (accAt (Value.reset5 m c) (Value.step5 m c) (8 * R) 7 h : S2048x1024.Idx → EReal) (Value.loc5Of i) := by
  subst hR
  unfold Value.G5
  rw [dif_pos h]

/-- THE KERNEL'S RESULT at entry `(P, Q)`. -/
theorem G5_entry (c : Dev nD) (P : Fin 8192) (Q : Fin 4096) :
    (Value.G5 (F := Ideal) m c : S8192x4096.Idx → EReal) (ix2 P Q)
      = ((0 + ∑ s ∈ Finset.range 7, tileSum m c P Q s) + tileSum m c P Q 7)
        + (lowRank m c P Q + bias m c (ix1 Q)) := by
  have hP := P.isLt
  have hQ := Q.isLt
  have hN : cfg0.N = 128 := N_0
  have hrun : Value.run5Of (ix2 P Q) = 4 * (P.val / 2048) + Q.val / 1024 := by
    show 4 * (P.val / 2048 - 0) + 1 * (Q.val / 1024 - 0) = _
    omega
  have hlt : 8 * (4 * (P.val / 2048) + Q.val / 1024) + 7 < cfg0.N := by rw [hN]; omega
  have hloc : Value.loc5Of (ix2 P Q) = ix2 (⟨P.val % 2048, by omega⟩ : Fin 2048) (⟨Q.val % 1024, by omega⟩ : Fin 1024) := by
    funext a
    match a with
    | ⟨0, _⟩ => rfl
    | ⟨1, _⟩ => rfl
  rw [G5_apply m c (ix2 P Q) _ hrun hlt, hloc, fold_entry m c _ (by omega) hlt]
  have et : ∀ s, s < 8 → tilePart m c (8 * (4 * (P.val / 2048) + Q.val / 1024) + s)
      (ix2 (⟨P.val % 2048, by omega⟩ : Fin 2048) (⟨Q.val % 1024, by omega⟩ : Fin 1024)) = tileSum m c P Q s :=
    fun s hs => tilePart_eq m c P Q _ s hs rfl _ _ rfl rfl
  rw [Finset.sum_congr rfl fun s hs => et s (by have := Finset.mem_range.mp hs; omega), et 7 (by omega)]
  have eh : ∀ r : Fin 64, hblk m c ⟨_, hlt⟩ (ix2 (⟨P.val % 2048, by omega⟩ : Fin 2048) r) = hidden m c (ix2 P r) := fun r =>
    Blocks.hidden m c ⟨_, hlt⟩ _ r P (by show P.val = (8 * (4 * (P.val / 2048) + Q.val / 1024) + 7) / 32 * 2048 + P.val % 2048; omega)
  have eu : ∀ r : Fin 64, ublk m c ⟨_, hlt⟩ (ix2 (⟨Q.val % 1024, by omega⟩ : Fin 1024) r) = lowU m c (ix2 Q r) := fun r =>
    Blocks.lowRankU m c ⟨_, hlt⟩ _ r Q (by show Q.val = (8 * (4 * (P.val / 2048) + Q.val / 1024) + 7) / 8 % 4 * 1024 + Q.val % 1024; omega)
  have eb : bblk m c ⟨_, hlt⟩ (ix2 (0 : Fin 1) (⟨Q.val % 1024, by omega⟩ : Fin 1024)) = bias m c (ix1 Q) :=
    Blocks.bias m c ⟨_, hlt⟩ _ Q (by show Q.val = (8 * (4 * (P.val / 2048) + Q.val / 1024) + 7) / 8 % 4 * 1024 + Q.val % 1024; omega)
  unfold lowRank
  simp only [eh, eu, eb]

end Cert.KernelIdeal.KernelEntry

end
-- ==== Proof.RefEntry.lean ====
/-
  What the reference computes at entry (P, Q) of its 8192 x 4096 result, at the exact values:

      (sum over r of hidden(P, r) * U(Q, r)) + ((sum over K of input(P, K) * weight(Q, K)) + bias(Q)),

  where hidden = (input x V) scaled column by column by S and weight is the de-quantised weight; the two transposes
  only swap which coordinate of U, resp. of the weight, the contraction runs along. The hidden activations and the
  weight are left as the reference's own stages: the kernel's host operations build the same two arrays.
-/
import proofs.«163559_j85289460564390_2_alg».proof.Proof.Gen.ReferenceIdeal.Read

noncomputable section

namespace Cert.ReferenceIdeal.RefEntry

open Cert.ReferenceIdeal Cert.ReferenceIdeal.Gen Cert.ReferenceIdeal.Read Idealize.ShloMosaic Idealize.ShloMosaic.ValueIdx

/-- THE REFERENCE'S RESULT at entry `(P, Q)`. -/
theorem result_entry (x0 : (⟨S8192x4096, .f32⟩ : BufTy).Contents (Elt Ideal)) (x1 : (⟨S4096x4096, .f32⟩ : BufTy).Contents (Elt Ideal))
    (x2 : (⟨S4096x128, .f32⟩ : BufTy).Contents (Elt Ideal)) (x3 : (⟨S4096, .f32⟩ : BufTy).Contents (Elt Ideal))
    (x4 : (⟨S4096x64, .f32⟩ : BufTy).Contents (Elt Ideal)) (x5 : (⟨S64, .f32⟩ : BufTy).Contents (Elt Ideal))
    (x6 : (⟨S4096x64, .f32⟩ : BufTy).Contents (Elt Ideal)) (P : Fin 8192) (Q : Fin 4096) :
    val_main_v16 (F := Ideal) x0 x1 x2 x3 x4 x5 x6 (ix2 P Q)
      = (∑ r : Fin 64, val_main_v3 (F := Ideal) x0 x5 x6 (ix2 P r) * x4 (ix2 Q r))
        + ((∑ K : Fin 4096, x0 (ix2 P K) * val_main_v10 (F := Ideal) x1 x2 (ix2 Q K)) + x3 (ix1 Q)) := by
  have el5 : ∀ r : Fin 64, lidx_main_v5 (ix2 P Q) r = ix2 P r := fun r => funext fun a => by
    match a with
    | ⟨0, _⟩ => rfl
    | ⟨1, _⟩ => rfl
  have er5 : ∀ r : Fin 64, idx_main_v4 (ridx_main_v5 (ix2 P Q) r) = ix2 Q r := fun r => funext fun a => by
    match a with
    | ⟨0, _⟩ => rfl
    | ⟨1, _⟩ => rfl
  have el12 : ∀ K : Fin 4096, lidx_main_v12 (ix2 P Q) K = ix2 P K := fun K => funext fun a => by
    match a with
    | ⟨0, _⟩ => rfl
    | ⟨1, _⟩ => rfl
  have er12 : ∀ K : Fin 4096, idx_main_v11 (ridx_main_v12 (ix2 P Q) K) = ix2 Q K := fun K => funext fun a => by
    match a with
    | ⟨0, _⟩ => rfl
    | ⟨1, _⟩ => rfl
  have eb : idx_main_v13 (idx_main_v14 (ix2 P Q)) = ix1 Q := funext fun a => by
    match a with
    | ⟨0, _⟩ => rfl
  rw [val_main_v16_apply, val_main_v5_apply, val_main_v15_apply, val_main_v12_apply, val_main_v14_apply, val_main_v13_apply]
  simp only [val_main_v4_apply, val_main_v11_apply, el5, er5, el12, er12, eb, Ideal.addf_def]

end Cert.ReferenceIdeal.RefEntry

end
-- ==== Proof.LibTileSum.lean ====
/-
  A finite sum cut into tiles of equal length: a sum over `K * n` consecutive terms is the sum, over the `n` tiles,
  of each tile's `K` terms; for a sum indexed by `Fin N` with `N = K * n`, term `d` of tile `s` is the term at
  position `K * s + d`.
-/
import Mathlib.Algebra.BigOperators.Fin

namespace Cert.TileSum

open Finset

/-- A sum over the first `K * n` naturals is the sum over `n` tiles of `K` consecutive terms each. -/
theorem sum_range_tiles {M : Type*} [AddCommMonoid M] (g : ℕ → M) (K : ℕ) : ∀ n : ℕ,
    ∑ k ∈ range (K * n), g k = ∑ s ∈ range n, ∑ d ∈ range K, g (K * s + d)
  | 0 => by simp
  | n + 1 => by rw [Nat.mul_succ, sum_range_add, sum_range_tiles g K n, sum_range_succ]

/-- A sum over `Fin N`, `N = K * n`, is the sum over `n` tiles of the `K` terms at positions `K * s + d` (each
    position is below `N`; the other branch is never taken). -/
theorem sum_fin_tiles {M : Type*} [AddCommMonoid M] (K n N : ℕ) (hN : N = K * n) (f : Fin N → M) :
    ∑ i : Fin N, f i
      = ∑ s ∈ range n, ∑ d : Fin K, (if h : K * s + d.val < N then f ⟨K * s + d.val, h⟩ else 0) := by
  have e : ∑ i : Fin N, f i = ∑ k ∈ range N, (if h : k < N then f ⟨k, h⟩ else 0) := by
    rw [sum_range]
    exact Fintype.sum_congr _ _ fun i => by rw [dif_pos i.isLt]
  rw [e]
  subst hN
  rw [sum_range_tiles]
  refine sum_congr rfl fun s _ => ?_
  rw [sum_range]

end Cert.TileSum
-- ==== Proof.Regroup.lean ====
/-
  The one law that joins the two programs. The kernel adds the eight tiles of the main contraction one after the
  other onto zero and then adds the epilogue (low-rank term plus bias); the reference adds the low-rank term to
  (whole contraction plus bias). Addition on the extended reals is commutative and associative, so no finiteness
  is needed: the statements hold in any commutative additive monoid.
-/
import Mathlib.Algebra.BigOperators.Fin
import proofs.«163559_j85289460564390_2_alg».proof.Proof.LibTileSum

namespace Cert.Regroup

open Finset

/-- Eight tile sums `t 0 … t 7` accumulated from zero, the last one followed by the epilogue `o + b`, against the
    grouping `o + (S + b)` where `S` is the sum of all eight tiles. -/
theorem accumulate_then_epilogue {M : Type*} [AddCommMonoid M] (t : ℕ → M) (o b S : M)
    (hS : S = ∑ s ∈ range 8, t s) :
    ((0 + ∑ s ∈ range 7, t s) + t 7) + (o + b) = o + (S + b) := by
  rw [zero_add, ← sum_range_succ, hS]
  exact add_left_comm _ _ _

/-- A contraction over 4096 positions is the sum over 8 tiles of the 512 terms at positions `512 * s + d`. -/
theorem contraction_tiles {M : Type*} [AddCommMonoid M] (f : Fin 4096 → M) :
    ∑ k : Fin 4096, f k
      = ∑ s ∈ range 8, ∑ d : Fin 512, (if h : 512 * s + d.val < 4096 then f ⟨512 * s + d.val, h⟩ else 0) :=
  Cert.TileSum.sum_fin_tiles 512 8 4096 rfl f

end Cert.Regroup
-- ==== Proof.Bridge.lean ====
/-
  The two results are one function of the arguments. At entry (P, Q) the kernel holds
  ((0 + tiles 0..6) + tile 7) + (low-rank + bias) and the reference low-rank + (whole contraction + bias); the whole
  contraction over 4096 positions is the sum of its eight tiles of 512, and addition on the extended reals is
  commutative and associative.
-/
import proofs.«163559_j85289460564390_2_alg».proof.Proof.KernelEntry
import proofs.«163559_j85289460564390_2_alg».proof.Proof.RefEntry
import proofs.«163559_j85289460564390_2_alg».proof.Proof.Regroup

noncomputable section

namespace Cert.Bridge

open Cert.KernelIdeal Cert.KernelIdeal.Gen Idealize.ShloMosaic Idealize.ShloMosaic.TcCoe Idealize.SL.Sem Idealize.ShloMosaic.ValueIdx

/-- The reference's result term, over the kernel program's arguments, is the array the kernel's run ends with. -/
theorem reference_eq_kernel (m : (ℓ : Loc nD τ sig) → Buf (Elt Ideal) ℓ) (c : Dev nD) :
    (Cert.ReferenceIdeal.Read.val_main_v16 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) : S8192x4096.Idx → EReal)
      = Cert.KernelIdeal.Value.G5 (F := Ideal) m c := by
  funext i
  obtain ⟨P, Q, rfl⟩ : ∃ (P : Fin 8192) (Q : Fin 4096), i = ix2 P Q := ⟨i 0, i 1, eq_ix2 i⟩
  refine (Cert.ReferenceIdeal.RefEntry.result_entry _ _ _ _ _ _ _ P Q).trans ?_
  refine Eq.trans ?_ (KernelEntry.G5_entry m c P Q).symm
  exact (Cert.Regroup.accumulate_then_epilogue (KernelEntry.tileSum m c P Q) (KernelEntry.lowRank m c P Q)
    (KernelEntry.bias m c (ix1 Q)) _ (Cert.Regroup.contraction_tiles (KernelEntry.mainTerm m c P Q))).symm

end Cert.Bridge

end
-- ==== Proof.lean ====
/-
  A block-scaled quantised linear layer with a low-rank correction:

      out = input x W^T + bias + ((input x V) * S) x U^T,      W = weight_q scaled block by block.

  The kernel tiles the 8192 x 4096 result into 2048 x 1024 blocks and the contraction into eight tiles of 512; a
  block is reset to zero, the eight partial products are added one grid point after the other, and the last point
  adds the low-rank product and the bias. The reference computes the low-rank product, the whole contraction and the
  bias and adds them in another grouping. At the exact values narrowing to bf16 is the identity, the de-quantised
  weight and the hidden activations are the same terms in both programs, and the two results differ only in the
  grouping and tiling of sums of extended reals: equal, with no appeal to finiteness.

  The three frames and each program's run come from the generated modules; the kernel's result at an entry
  (Proof/KernelEntry.lean), the reference's (Proof/RefEntry.lean) and their equality (Proof/Bridge.lean) are below.
-/
import proofs.«163559_j85289460564390_2_alg».proof.Defs
import proofs.«163559_j85289460564390_2_alg».proof.Proof.Gen.Kernel.Frame
import proofs.«163559_j85289460564390_2_alg».proof.Proof.Gen.KernelIdeal.Value
import proofs.«163559_j85289460564390_2_alg».proof.Proof.Gen.Pre_finite_inputs
import proofs.«163559_j85289460564390_2_alg».proof.Proof.Gen.ReferenceIdeal.Run
import proofs.«163559_j85289460564390_2_alg».proof.Proof.Bridge
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the arguments, the kernel ends with its result array at the fold of its runs of
    grid points and the reference with its composed term; entry by entry these are the same extended real. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Bridge.reference_eq_kernel m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
